-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S128x16 .f32) (main_arg12 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x16 .f32 := Host.absf main_arg11
  let main_cst_18 : FVec F S_ .f32 := constant S_ .f32 0x7F800000#32
  let main_v50 : FVec F S128x16 .f32 := broadcastInDim S128x16 ![] bcast_S_S128x16 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x16 .f32) (main_arg12 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x16 .f32) (main_arg12 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 100
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x16, .f32⟩
  | .hbm, ⟨12, _⟩ => ⟨S16, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S_, .f32⟩
  | .hbm, ⟨85, _⟩ => ⟨S800000, .f32⟩
  | .hbm, ⟨86, _⟩ => ⟨S_, .f32⟩
  | .hbm, ⟨87, _⟩ => ⟨S50000, .f32⟩
  | .hbm, ⟨88, _⟩ => ⟨S800000x1, .i32⟩
  | .hbm, ⟨89, _⟩ => ⟨S50000, .f32⟩
  | .hbm, ⟨90, _⟩ => ⟨S_, .f32⟩
  | .hbm, ⟨91, _⟩ => ⟨S50000, .f32⟩
  | .hbm, ⟨92, _⟩ => ⟨S50000, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S1x16, .f32⟩
  | .hbm, ⟨99, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x16, .f32⟩
  | .local _ .vmem, ⟨30, _⟩ => ⟨S1x16, .f32⟩
  | .local _ .vmem, ⟨31, _⟩ => ⟨S5000x16, .f32⟩
  | .local _ .vmem, ⟨32, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x16.size a ≤ S128x16.size a
  hwx3_1 : ∀ i : grid3.Coords, EltTy.bits .f32 = 32 ∨ (Rect.block (s := S128x16) S128x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x16.size a ≤ S50000x16.size a
  hwx3_3 : ∀ i : grid3.Coords, EltTy.bits .f32 = 32 ∨ (Rect.block (s := S50000x16) S5000x16.size (cc3_transform_3 i) (hinb3_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S5000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x16 : Shape := ⟨2, ![50000, 16]⟩
abbrev S1x16 : Shape := ⟨2, ![1, 16]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x16, .f32⟩
  | .hbm, ⟨12, _⟩ => ⟨S16, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S_, .f32⟩
  | .hbm, ⟨95, _⟩ => ⟨S50000x128, .f32⟩
  | .hbm, ⟨96, _⟩ => ⟨S800000x1, .i32⟩
  | .hbm, ⟨97, _⟩ => ⟨S50000x128, .f32⟩
  | .hbm, ⟨98, _⟩ => ⟨S_, .f32⟩
  | .hbm, ⟨99, _⟩ => ⟨S800000, .f32⟩
  | .hbm, ⟨100, _⟩ => ⟨S_, .f32⟩
  | .hbm, ⟨101, _⟩ => ⟨S50000, .f32⟩
  | .hbm, ⟨102, _⟩ => ⟨S800000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S_, .f32⟩
  | .hbm, ⟨117, _⟩ => ⟨S50000x128, .f32⟩
  | .hbm, ⟨118, _⟩ => ⟨S50000x128, .f32⟩
  | .hbm, ⟨119, _⟩ => ⟨S50000x16, .f32⟩
  | .hbm, ⟨120, _⟩ => ⟨S1x16, .f32⟩
  | .hbm, ⟨121, _⟩ => ⟨S50000x16, .f32⟩
  | .hbm, ⟨122, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.Terms.lean ====
/-
  The two programs as whole-array functions of their thirteen arguments.

  Both compute three graph-convolution layers followed by a linear layer. A layer takes node features h (one row per
  node), averages over every node's incoming edges the features of the edge's source node (the mean over an empty set of
  edges read as a division by one), and returns max(mean · Wl + h · Wr + b, 0). The neighbour mean is computed by the
  same host operations in both programs (named `agg` here, once per program because each program has its own records of
  dimension numbers); the affine part and the clamp are done by the kernel's matrix-unit regions in one program and by
  host matrix products in the other.
-/
import proofs.«131522_j34600256537257_1_alg».proof.Proof.Gen.KernelIdeal
import proofs.«131522_j34600256537257_1_alg».proof.Proof.Gen.ReferenceIdeal
import Idealize.ShloMosaic.PureOps.Ideal
import Idealize.ShloMosaic.Lib.ValueIdx

noncomputable section

open scoped BigOperators

namespace Cert.KernelIdeal.Terms

open Cert.KernelIdeal Cert.KernelIdeal.Facts₀ Cert.KernelIdeal.Facts Idealize.ShloMosaic Idealize.ShloMosaic.ValueIdx

variable {F : FTy → Type} [FloatOps F]

/-- Row 0 of the edge list: every edge's source node. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: every edge's destination node. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The neighbour mean: the rows of `h` gathered at the (wrapped) sources, summed into the destinations' rows, each row
    divided by the larger of its in-degree and one. -/
def agg (h : (⟨S50000x128, .f32⟩ : BufTy).Contents (Elt F)) (s d : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

/-- A 128-vector as a one-row matrix. -/
def row128 (b : (⟨S128, .f32⟩ : BufTy).Contents (Elt F)) : (⟨S1x128, .f32⟩ : BufTy).Contents (Elt F) :=
  shapeCast _ b shapeCasts_S128_S1x128

/-- A 16-vector as a one-row matrix. -/
def row16 (b : (⟨S16, .f32⟩ : BufTy).Contents (Elt F)) : (⟨S1x16, .f32⟩ : BufTy).Contents (Elt F) :=
  shapeCast _ b shapeCasts_S16_S1x16

/-- What a combine region leaves in its output array: entry (p, q) is
    max((Σₖ mean[p,k]·Wl[k,q] + Σₖ h[p,k]·Wr[k,q]) + b[0,q], 0). -/
def comb (mean h : FVec Ideal S50000x128 .f32) (Wl : FVec Ideal S128x128 .f32) (b : FVec Ideal S1x128 .f32)
    (Wr : FVec Ideal S128x128 .f32) : FVec Ideal S50000x128 .f32 :=
  fun i => max ((∑ k : Fin 128, mean (ix2 (i 0) k) * Wl (ix2 k (i 1)) + ∑ k : Fin 128, h (ix2 (i 0) k) * Wr (ix2 k (i 1)))
    + b (ix2 (0 : Fin 1) (i 1))) (Ideal.ofBits .f32 0x00000000#32)

/-- What the linear region leaves in its output array: entry (p, q) is Σₖ h[p,k]·W[k,q] + b[0,q]. -/
def lin (h : FVec Ideal S50000x128 .f32) (W : FVec Ideal S128x16 .f32) (b : FVec Ideal S1x16 .f32) :
    FVec Ideal S50000x16 .f32 :=
  fun i => (∑ k : Fin 128, h (ix2 (i 0) k) * W (ix2 k (i 1))) + b (ix2 (0 : Fin 1) (i 1))

/-- One layer of the kernel's program: the host's neighbour mean, then the combine region. -/
def layer (h : FVec Ideal S50000x128 .f32) (e : IVec S2x800000 32) (Wl : FVec Ideal S128x128 .f32)
    (b : FVec Ideal S128 .f32) (Wr : FVec Ideal S128x128 .f32) : FVec Ideal S50000x128 .f32 :=
  comb (agg (F := Ideal) h (src (F := Ideal) e) (dst (F := Ideal) e)) h Wl (row128 (F := Ideal) b) Wr

/-- The kernel's program: three layers and the linear region. -/
def total (x0 : FVec Ideal S50000x128 .f32) (e : IVec S2x800000 32)
    (x2 : FVec Ideal S128x128 .f32) (x3 : FVec Ideal S128 .f32) (x4 : FVec Ideal S128x128 .f32)
    (x5 : FVec Ideal S128x128 .f32) (x6 : FVec Ideal S128 .f32) (x7 : FVec Ideal S128x128 .f32)
    (x8 : FVec Ideal S128x128 .f32) (x9 : FVec Ideal S128 .f32) (x10 : FVec Ideal S128x128 .f32)
    (x11 : FVec Ideal S128x16 .f32) (x12 : FVec Ideal S16 .f32) : FVec Ideal S50000x16 .f32 :=
  lin (layer (layer (layer x0 e x2 x3 x4) e x5 x6 x7) e x8 x9 x10) x11 (row16 (F := Ideal) x12)

end Cert.KernelIdeal.Terms

namespace Cert.ReferenceIdeal.Terms

open Cert.ReferenceIdeal Cert.ReferenceIdeal.Facts₀ Cert.ReferenceIdeal.Facts Idealize.ShloMosaic Idealize.ShloMosaic.ValueIdx

/-- The reference's neighbour mean (the same host operations as the kernel's program, over this program's records). -/
def agg (h : FVec Ideal S50000x128 .f32) (e : IVec S2x800000 32) : FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0
        (shapeCast _ (extractStridedSlice S1x800000 ![1, 0] e slices_S2x800000_S1x800000_1_0) shapeCasts_S1x800000_S800000))
      (Host.gather gather_S50000x128_S800000x1_S800000x128_1_0_n_n_0_1_1128 h
        (broadcastInDim S800000x1 ![0] bcast_S800000_S800000x1_0
          (select (cmpi .slt (shapeCast _ (extractStridedSlice S1x800000 ![0, 0] e slices_S2x800000_S1x800000_0_0) shapeCasts_S1x800000_S800000)
              (broadcastInDim S800000 ![] bcast_S_S800000 (constantI S_ 32 0#32)))
            (addi (shapeCast _ (extractStridedSlice S1x800000 ![0, 0] e slices_S2x800000_S1x800000_0_0) shapeCasts_S1x800000_S800000)
              (broadcastInDim S800000 ![] bcast_S_S800000 (constantI S_ 32 50000#32)))
            (shapeCast _ (extractStridedSlice S1x800000 ![0, 0] e slices_S2x800000_S1x800000_0_0) shapeCasts_S1x800000_S800000)))))
    (broadcastInDim S50000x128 ![0, 1] bcast_S50000x1_S50000x128_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0
              (shapeCast _ (extractStridedSlice S1x800000 ![1, 0] e slices_S2x800000_S1x800000_1_0) shapeCasts_S1x800000_S800000))
            (broadcastInDim S800000 ![] bcast_S_S800000 (constant (F := Ideal) S_ .f32 0x3F800000#32)))
          (broadcastInDim S50000 ![] bcast_S_S50000 (constant (F := Ideal) S_ .f32 0x3F800000#32)))))

/-- One layer of the reference: max((mean · Wl + b) + h · Wr, 0) with host matrix products. -/
def layer (h : FVec Ideal S50000x128 .f32) (e : IVec S2x800000 32) (Wl : FVec Ideal S128x128 .f32)
    (b : FVec Ideal S128 .f32) (Wr : FVec Ideal S128x128 .f32) : FVec Ideal S50000x128 .f32 :=
  maximumf (F := Ideal)
    (addf (F := Ideal)
      (addf (F := Ideal)
        (Host.dotGeneral (F := Ideal) dot_S50000x128_S128x128_S50000x128_1_0_0_1_n_n none (agg h e) Wl)
        (broadcastInDim S50000x128 ![0, 1] bcast_S1x128_S50000x128_0_1 (broadcastInDim S1x128 ![1] bcast_S128_S1x128_1 b)))
      (Host.dotGeneral (F := Ideal) dot_S50000x128_S128x128_S50000x128_1_0_0_1_n_n none h Wr))
    (broadcastInDim S50000x128 ![] bcast_S_S50000x128 (constant (F := Ideal) S_ .f32 0x00000000#32))

/-- The reference: three layers and a host linear layer. -/
def total (x0 : FVec Ideal S50000x128 .f32) (e : IVec S2x800000 32)
    (x2 : FVec Ideal S128x128 .f32) (x3 : FVec Ideal S128 .f32) (x4 : FVec Ideal S128x128 .f32)
    (x5 : FVec Ideal S128x128 .f32) (x6 : FVec Ideal S128 .f32) (x7 : FVec Ideal S128x128 .f32)
    (x8 : FVec Ideal S128x128 .f32) (x9 : FVec Ideal S128 .f32) (x10 : FVec Ideal S128x128 .f32)
    (x11 : FVec Ideal S128x16 .f32) (x12 : FVec Ideal S16 .f32) : FVec Ideal S50000x16 .f32 :=
  addf (F := Ideal)
    (Host.dotGeneral (F := Ideal) dot_S50000x128_S128x16_S50000x16_1_0_0_1_n_n none
      (layer (layer (layer x0 e x2 x3 x4) e x5 x6 x7) e x8 x9 x10) x11)
    (broadcastInDim S50000x16 ![0, 1] bcast_S1x16_S50000x16_0_1 (broadcastInDim S1x16 ![1] bcast_S16_S1x16_1 x12))

end Cert.ReferenceIdeal.Terms

end
-- ==== Proof.KRun.lean ====
/-
  The kernel program's run with its result array named: every weakly fair execution of @main terminates without a
  fault, the thirteen argument arrays end as launched, and the result array ends at the last segment boundary's
  contents of its buffer (the fold of the host stretches and the four regions' write-backs over the launch memory).
-/
import proofs.«131522_j34600256537257_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the segments of @main, the last thread state read against the final state: the result buffer at the
    last boundary's contents, each argument at its launch contents. -/
theorem run_named : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.RunValue

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.Pay.lean ====
/-
  What a region's body stores, read at an entry. A combine body stores, at row r and column q of its 5000-row block,
  max((Σₖ mean[r,k]·Wl[k,q] + Σₖ h[r,k]·Wr[k,q]) + b[0,q], 0); the linear body stores Σₖ h[r,k]·W[k,q] + b[0,q]. The
  changes of float format on the way into the matrix unit are the identity on the extended reals, and a product into
  the zero accumulator is the plain sum over the contracted axis.
-/
import proofs.«131522_j34600256537257_1_alg».proof.Proof.Gen.KernelIdeal.Skeleton
import proofs.«131522_j34600256537257_1_alg».proof.Proof.LibMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.Bridge

/-- The records of dimension numbers the bodies cite are the plain M×K by K×N ones. -/
theorem dot128 : dot_S5000x128_S128x128_S5000x128_1_0_0_1_n_n = DotDims.plain 5000 128 128 := rfl
theorem dot16 : dot_S5000x128_S128x16_S5000x16_1_0_0_1_n_n = DotDims.plain 5000 128 16 := rfl

/-- A product of a 5000×128 block with a 128×128 matrix into the zero accumulator, at (r, q). -/
theorem mm128 {φ₁ φ₂ : FTy} (A : FVec Ideal S5000x128 φ₁) (W : FVec Ideal S128x128 φ₂) (r : Fin 5000) (q : Fin 128) :
    matmul dot_S5000x128_S128x128_S5000x128_1_0_0_1_n_n none A W (constant S5000x128 .f32 0x00000000#32) (ix2 r q)
      = ∑ k : Fin 128, A (ix2 r k) * W (ix2 k q) := by
  rw [dot128]
  exact LibMatmul.matmul_zero_apply none A W r q

/-- A product of a 5000×128 block with a 128×16 matrix into the zero accumulator, at (r, q). -/
theorem mm16 {φ₁ φ₂ : FTy} (A : FVec Ideal S5000x128 φ₁) (W : FVec Ideal S128x16 φ₂) (r : Fin 5000) (q : Fin 16) :
    matmul dot_S5000x128_S128x16_S5000x16_1_0_0_1_n_n none A W (constant S5000x16 .f32 0x00000000#32) (ix2 r q)
      = ∑ k : Fin 128, A (ix2 r k) * W (ix2 k q) := by
  rw [dot16]
  exact LibMatmul.matmul_zero_apply none A W r q

/-- The first combine body's stored value at (r, q). -/
theorem pay0_apply (x0 x1 : Vec Ideal S5000x128 .f32) (x2 x4 : Vec Ideal S128x128 .f32) (x3 : Vec Ideal S1x128 .f32)
    (r : Fin 5000) (q : Fin 128) :
    k0_pay1 (F := Ideal) x0 x1 x2 x4 x3 (ix2 r q)
      = max ((∑ k : Fin 128, x0 (ix2 r k) * x2 (ix2 k q) + ∑ k : Fin 128, x1 (ix2 r k) * x4 (ix2 k q))
          + x3 (ix2 (0 : Fin 1) q)) (Ideal.ofBits .f32 0x00000000#32) := by
  unfold k0_pay1
  rw [maximumf_apply, addf_apply, addf_apply, mm128, mm128, broadcastTo_1b_ab_apply]
  simp only [shapeCast_self, truncf_apply, broadcast_apply]
  rfl

/-- The second combine body's stored value at (r, q). -/
theorem pay1_apply (x0 x1 : Vec Ideal S5000x128 .f32) (x2 x4 : Vec Ideal S128x128 .f32) (x3 : Vec Ideal S1x128 .f32)
    (r : Fin 5000) (q : Fin 128) :
    k1_pay1 (F := Ideal) x0 x1 x2 x4 x3 (ix2 r q)
      = max ((∑ k : Fin 128, x0 (ix2 r k) * x2 (ix2 k q) + ∑ k : Fin 128, x1 (ix2 r k) * x4 (ix2 k q))
          + x3 (ix2 (0 : Fin 1) q)) (Ideal.ofBits .f32 0x00000000#32) := by
  unfold k1_pay1
  rw [maximumf_apply, addf_apply, addf_apply, mm128, mm128, broadcastTo_1b_ab_apply]
  simp only [shapeCast_self, truncf_apply, broadcast_apply]
  rfl

/-- The third combine body's stored value at (r, q). -/
theorem pay2_apply (x0 x1 : Vec Ideal S5000x128 .f32) (x2 x4 : Vec Ideal S128x128 .f32) (x3 : Vec Ideal S1x128 .f32)
    (r : Fin 5000) (q : Fin 128) :
    k2_pay1 (F := Ideal) x0 x1 x2 x4 x3 (ix2 r q)
      = max ((∑ k : Fin 128, x0 (ix2 r k) * x2 (ix2 k q) + ∑ k : Fin 128, x1 (ix2 r k) * x4 (ix2 k q))
          + x3 (ix2 (0 : Fin 1) q)) (Ideal.ofBits .f32 0x00000000#32) := by
  unfold k2_pay1
  rw [maximumf_apply, addf_apply, addf_apply, mm128, mm128, broadcastTo_1b_ab_apply]
  simp only [shapeCast_self, truncf_apply, broadcast_apply]
  rfl

/-- The linear body's stored value at (r, q). -/
theorem pay3_apply (x0 : Vec Ideal S5000x128 .f32) (x1 : Vec Ideal S128x16 .f32) (x2 : Vec Ideal S1x16 .f32)
    (r : Fin 5000) (q : Fin 16) :
    k3_pay1 (F := Ideal) x0 x1 x2 (ix2 r q)
      = (∑ k : Fin 128, x0 (ix2 r k) * x1 (ix2 k q)) + x2 (ix2 (0 : Fin 1) q) := by
  unfold k3_pay1
  rw [addf_apply, mm16, broadcastTo_1b_ab_apply]
  simp only [shapeCast_self, truncf_apply]

end Cert.KernelIdeal.Pay

end
-- ==== Proof.Blocks0.lean ====
/-
  Region 0 of the kernel program, as one function of the arrays it finds. Its grid has ten points; point t stages rows
  5000·t … 5000·t + 4999 of the mean and feature arrays and the whole weight and bias arrays, and writes back rows
  5000·t … 5000·t + 4999 of the output. Entry (r, q) of the written block is the combine formula of rows r of the two
  staged blocks, which are rows 5000·t + r of the arrays: the ten blocks are the restrictions of ONE function of the
  arrays, and they cover the output.
-/
import proofs.«131522_j34600256537257_1_alg».proof.Proof.Gen.KernelIdeal.Frame
import proofs.«131522_j34600256537257_1_alg».proof.Proof.Terms
import proofs.«131522_j34600256537257_1_alg».proof.Proof.Pay
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.KernelIdeal.Terms Idealize.ShloMosaic Idealize.ShloMosaic.TcCoe
open Idealize.ShloMosaic.ValueIdx Idealize.SL.Sem

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The index maps over the grid: the row-tiled windows sit at block (t, 0), the resident ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := by
  have h := t.isLt; have hN : cfg0.N = 10 := N_0; omega

/-- Row r of the mean block at point t is row 5000·t + r of the mean array. -/
theorem blk0_apply (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_v22 : S50000x128.Idx → EReal) k := by
  obtain ⟨e0, e1, -⟩ := idx_facts t
  unfold iblk0
  rw [View.read_apply]
  show V c main_v22 _ = V c main_v22 _
  refine congrArg (V c main_v22) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- Row r of the feature block at point t is row 5000·t + r of the feature array. -/
theorem blk1_apply (t : Fin cfg0.N) (x : S5000x128.Idx) (k : S50000x128.Idx)
    (hk0 : (k 0).val = 5000 * t.val + (x 0).val) (hk1 : (k 1).val = (x 1).val) :
    (iblk0 V c 1 t : Vec Ideal S5000x128 .f32) x = (V c main_arg0 : S50000x128.Idx → EReal) k := by
  obtain ⟨-, -, e0, e1, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * (x 0).val = (k 0).val; rw [e0, hk0]; omega
  | ⟨1, _⟩ => show win0_1.index t (1 : Fin 2) * 128 + 1 * (x 1).val = (k 1).val; rw [e1, hk1]; omega

/-- The staged left weights are the whole array. -/
theorem blk2_apply (t : Fin cfg0.N) (x : S128x128.Idx) :
    (iblk0 V c 2 t : Vec Ideal S128x128 .f32) x = (V c main_arg2 : S128x128.Idx → EReal) x := by
  obtain ⟨-, -, -, -, e0, e1, -⟩ := idx_facts t
  unfold iblk0
  rw [View.read_apply]
  show V c main_arg2 _ = V c main_arg2 _
  refine congrArg (V c main_arg2) (funext fun a => Fin.ext ?_)
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- The staged bias row is the whole array. -/
theorem blk3_apply (t : Fin cfg0.N) (x : S1x128.Idx) :
    (iblk0 V c 3 t : Vec Ideal S1x128 .f32) x = (V c main_v23 : S1x128.Idx → EReal) x := by
  obtain ⟨-, -, -, -, -, -, e0, e1, -⟩ := idx_facts t
  unfold iblk0
  rw [View.read_apply]
  show V c main_v23 _ = V c main_v23 _
  refine congrArg (V c main_v23) (funext fun a => Fin.ext ?_)
  match a with
  | ⟨0, _⟩ => show win0_3.index t (0 : Fin 2) * 1 + 1 * (x 0).val = (x 0).val; rw [e0]; omega
  | ⟨1, _⟩ => show win0_3.index t (1 : Fin 2) * 128 + 1 * (x 1).val = (x 1).val; rw [e1]; omega

/-- The staged right weights are the whole array. -/
theorem blk4_apply (t : Fin cfg0.N) (x : S128x128.Idx) :
    (iblk0 V c 4 t : Vec Ideal S128x128 .f32) x = (V c main_arg4 : S128x128.Idx → EReal) x := by
  obtain ⟨-, -, -, -, -, -, -, -, e0, e1, -⟩ := idx_facts t
  unfold iblk0
  rw [View.read_apply]
  show V c main_arg4 _ = V c main_arg4 _
  refine congrArg (V c main_arg4) (funext fun a => Fin.ext ?_)
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- What the body leaves in the output block, from any five staged blocks, at (r, q). -/
theorem out_apply (x0 x1 : Vec Ideal S5000x128 .f32) (x2 : Vec Ideal S128x128 .f32) (x3 : Vec Ideal S1x128 .f32)
    (x4 : Vec Ideal S128x128 .f32) (r : Fin 5000) (q : Fin 128) :
    out0_5 (F := Ideal) x0 x1 x2 x3 x4 (ix2 r q)
      = max ((∑ k : Fin 128, x0 (ix2 r k) * x2 (ix2 k q) + ∑ k : Fin 128, x1 (ix2 r k) * x4 (ix2 k q))
          + x3 (ix2 (0 : Fin 1) q)) (Ideal.ofBits .f32 0x00000000#32) := by
  unfold out0_5
  rw [View.canon_unit_zero hz]
  simp only [View.ld_unit_zero (S := S5000x128) hz, View.ld_unit_zero (S := S128x128) hz, View.ld_unit_zero (S := S1x128) hz]
  exact Pay.pay0_apply x0 x1 x2 x4 x3 r q

/-- Entry (r, q) of the block point t writes is entry (5000·t + r, q) of the combine of the arrays. -/
theorem out_at (t : Fin cfg0.N) (r : Fin 5000) (q : Fin 128) (p : Fin 50000) (hp : p.val = 5000 * t.val + r.val) :
    out0_5 (F := Ideal) (iblk0 V c 0 t) (iblk0 V c 1 t) (iblk0 V c 2 t) (iblk0 V c 3 t) (iblk0 V c 4 t) (ix2 r q)
      = comb (V c main_v22) (V c main_arg0) (V c main_arg2) (V c main_v23) (V c main_arg4) (ix2 p q) := by
  refine (out_apply (iblk0 V c 0 t) (iblk0 V c 1 t) (iblk0 V c 2 t) (iblk0 V c 3 t) (iblk0 V c 4 t) r q).trans ?_
  unfold comb
  have h0 : ∀ k : Fin 128, (iblk0 V c 0 t : Vec Ideal S5000x128 .f32) (ix2 r k) = (V c main_v22 : S50000x128.Idx → EReal) (ix2 p k) :=
    fun k => blk0_apply V c t (ix2 r k) (ix2 p k) hp rfl
  have h1 : ∀ k : Fin 128, (iblk0 V c 1 t : Vec Ideal S5000x128 .f32) (ix2 r k) = (V c main_arg0 : S50000x128.Idx → EReal) (ix2 p k) :=
    fun k => blk1_apply V c t (ix2 r k) (ix2 p k) hp rfl
  have h2 : ∀ k : Fin 128, (iblk0 V c 2 t : Vec Ideal S128x128 .f32) (ix2 k q) = (V c main_arg2 : S128x128.Idx → EReal) (ix2 k q) :=
    fun k => blk2_apply V c t (ix2 k q)
  have h3 : (iblk0 V c 3 t : Vec Ideal S1x128 .f32) (ix2 (0 : Fin 1) q) = (V c main_v23 : S1x128.Idx → EReal) (ix2 (0 : Fin 1) q) :=
    blk3_apply V c t (ix2 (0 : Fin 1) q)
  have h4 : ∀ k : Fin 128, (iblk0 V c 4 t : Vec Ideal S128x128 .f32) (ix2 k q) = (V c main_arg4 : S128x128.Idx → EReal) (ix2 k q) :=
    fun k => blk4_apply V c t (ix2 k q)
  refine congrArg (fun z => max z (Ideal.ofBits .f32 0x00000000#32)) ?_
  refine congrArg₂ (· + ·) (congrArg₂ (· + ·) ?_ ?_) h3
  · exact Finset.sum_congr rfl fun k _ => congrArg₂ (· * ·) (h0 k) (h2 k)
  · exact Finset.sum_congr rfl fun k _ => congrArg₂ (· * ·) (h1 k) (h4 k)

/-- What point t writes back is block t of the combine of the arrays. -/
theorem flushed_eq (t : Fin cfg0.N) :
    (dat0 V c).flushed 5 t = ((cfg0.win 5).blk t).view.read (Elt Ideal)
      (comb (V c main_v22) (V c main_arg0) (V c main_arg2) (V c main_v23) (V c main_arg4)) := by
  show (cfg0.win 5).cut (grid0.coords t) ((dat0 V c).after 5 t) = _
  rw [after0_5]
  funext j
  obtain ⟨r, q, rfl⟩ : ∃ (r : Fin 5000) (q : Fin 128), j = ix2 r q := ⟨j 0, j 1, eq_ix2 j⟩
  rw [View.read_apply]
  have ht := point_lt t
  obtain ⟨-, -, -, -, -, -, -, -, -, -, e0, e1⟩ := idx_facts t
  have hemb : ((cfg0.win 5).blk t).view.emb (ix2 r q) = ix2 (⟨5000 * t.val + r.val, by omega⟩ : Fin 50000) q := by
    funext a; apply Fin.ext
    match a with
    | ⟨0, _⟩ => show win0_5.index t (0 : Fin 2) * 5000 + 1 * r.val = 5000 * t.val + r.val; rw [e0]; omega
    | ⟨1, _⟩ => show win0_5.index t (1 : Fin 2) * 128 + 1 * q.val = q.val; rw [e1]; omega
  rw [hemb]
  exact out_at V c t r q _ rfl

/-- An index of the output array is in point t's block iff its row is one of the block's rows. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every row of the output is in the block of the point row / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  refine ⟨⟨(i 0).val / 5000, by rw [show cfg0.N = 10 from N_0]; omega⟩, flush0_5 _, ?_⟩
  rw [mem_blk]
  obtain ⟨-, -, -, -, -, -, -, -, -, -, e0, e1⟩ := idx_facts ⟨(i 0).val / 5000, by rw [show cfg0.N = 10 from N_0]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- The output array after the region: the combine of the arrays the region found. -/
theorem final : (dat0 V c).arrAt 5 cfg0.N
    = comb (V c main_v22) (V c main_arg0) (V c main_arg2) (V c main_v23) (V c main_arg4) :=
  (dat0 V c).arrAt_eq_of_cover 5 _ (fun t _ => flushed_eq V c t) (cover)

end Cert.KernelIdeal.Region0

end
-- ==== Proof.Blocks1.lean ====
/-
  Region 1 of the kernel program, as one function of the arrays it finds. Its grid has ten points; point t stages rows
  5000·t … 5000·t + 4999 of the mean and feature arrays and the whole weight and bias arrays, and writes back rows
  5000·t … 5000·t + 4999 of the output. Entry (r, q) of the written block is the combine formula of rows r of the two
  staged blocks, which are rows 5000·t + r of the arrays: the ten blocks are the restrictions of ONE function of the
  arrays, and they cover the output.
-/
import proofs.«131522_j34600256537257_1_alg».proof.Proof.Gen.KernelIdeal.Frame
import proofs.«131522_j34600256537257_1_alg».proof.Proof.Terms
import proofs.«131522_j34600256537257_1_alg».proof.Proof.Pay
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.KernelIdeal.Terms Idealize.ShloMosaic Idealize.ShloMosaic.TcCoe
open Idealize.ShloMosaic.ValueIdx Idealize.SL.Sem

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The index maps over the grid: the row-tiled windows sit at block (t, 0), the resident ones at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 10 := by
  have h := t.isLt; have hN : cfg1.N = 10 := N_1; omega

/-- Row r of the mean block at point t is row 5000·t + r of the mean array. -/
theorem blk0_apply (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v43 : S50000x128.Idx → EReal) k := by
  obtain ⟨e0, e1, -⟩ := idx_facts t
  unfold iblk1
  rw [View.read_apply]
  show V c main_v43 _ = V c main_v43 _
  refine congrArg (V c main_v43) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- Row r of the feature block at point t is row 5000·t + r of the feature array. -/
theorem blk1_apply (t : Fin cfg1.N) (x : S5000x128.Idx) (k : S50000x128.Idx)
    (hk0 : (k 0).val = 5000 * t.val + (x 0).val) (hk1 : (k 1).val = (x 1).val) :
    (iblk1 V c 1 t : Vec Ideal S5000x128 .f32) x = (V c main_v24 : S50000x128.Idx → EReal) k := by
  obtain ⟨-, -, e0, e1, -⟩ := idx_facts t
  unfold iblk1
  rw [View.read_apply]
  show V c main_v24 _ = V c main_v24 _
  refine congrArg (V c main_v24) (funext fun a => Fin.ext ?_)
  match a with
  | ⟨0, _⟩ => show win1_1.index t (0 : Fin 2) * 5000 + 1 * (x 0).val = (k 0).val; rw [e0, hk0]; omega
  | ⟨1, _⟩ => show win1_1.index t (1 : Fin 2) * 128 + 1 * (x 1).val = (k 1).val; rw [e1, hk1]; omega

/-- The staged left weights are the whole array. -/
theorem blk2_apply (t : Fin cfg1.N) (x : S128x128.Idx) :
    (iblk1 V c 2 t : Vec Ideal S128x128 .f32) x = (V c main_arg5 : S128x128.Idx → EReal) x := by
  obtain ⟨-, -, -, -, e0, e1, -⟩ := idx_facts t
  unfold iblk1
  rw [View.read_apply]
  show V c main_arg5 _ = V c main_arg5 _
  refine congrArg (V c main_arg5) (funext fun a => Fin.ext ?_)
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The staged bias row is the whole array. -/
theorem blk3_apply (t : Fin cfg1.N) (x : S1x128.Idx) :
    (iblk1 V c 3 t : Vec Ideal S1x128 .f32) x = (V c main_v44 : S1x128.Idx → EReal) x := by
  obtain ⟨-, -, -, -, -, -, e0, e1, -⟩ := idx_facts t
  unfold iblk1
  rw [View.read_apply]
  show V c main_v44 _ = V c main_v44 _
  refine congrArg (V c main_v44) (funext fun a => Fin.ext ?_)
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- The staged right weights are the whole array. -/
theorem blk4_apply (t : Fin cfg1.N) (x : S128x128.Idx) :
    (iblk1 V c 4 t : Vec Ideal S128x128 .f32) x = (V c main_arg7 : S128x128.Idx → EReal) x := by
  obtain ⟨-, -, -, -, -, -, -, -, e0, e1, -⟩ := idx_facts t
  unfold iblk1
  rw [View.read_apply]
  show V c main_arg7 _ = V c main_arg7 _
  refine congrArg (V c main_arg7) (funext fun a => Fin.ext ?_)
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- What the body leaves in the output block, from any five staged blocks, at (r, q). -/
theorem out_apply (x0 x1 : Vec Ideal S5000x128 .f32) (x2 : Vec Ideal S128x128 .f32) (x3 : Vec Ideal S1x128 .f32)
    (x4 : Vec Ideal S128x128 .f32) (r : Fin 5000) (q : Fin 128) :
    out1_5 (F := Ideal) x0 x1 x2 x3 x4 (ix2 r q)
      = max ((∑ k : Fin 128, x0 (ix2 r k) * x2 (ix2 k q) + ∑ k : Fin 128, x1 (ix2 r k) * x4 (ix2 k q))
          + x3 (ix2 (0 : Fin 1) q)) (Ideal.ofBits .f32 0x00000000#32) := by
  unfold out1_5
  rw [View.canon_unit_zero hz]
  simp only [View.ld_unit_zero (S := S5000x128) hz, View.ld_unit_zero (S := S128x128) hz, View.ld_unit_zero (S := S1x128) hz]
  exact Pay.pay1_apply x0 x1 x2 x4 x3 r q

/-- Entry (r, q) of the block point t writes is entry (5000·t + r, q) of the combine of the arrays. -/
theorem out_at (t : Fin cfg1.N) (r : Fin 5000) (q : Fin 128) (p : Fin 50000) (hp : p.val = 5000 * t.val + r.val) :
    out1_5 (F := Ideal) (iblk1 V c 0 t) (iblk1 V c 1 t) (iblk1 V c 2 t) (iblk1 V c 3 t) (iblk1 V c 4 t) (ix2 r q)
      = comb (V c main_v43) (V c main_v24) (V c main_arg5) (V c main_v44) (V c main_arg7) (ix2 p q) := by
  refine (out_apply (iblk1 V c 0 t) (iblk1 V c 1 t) (iblk1 V c 2 t) (iblk1 V c 3 t) (iblk1 V c 4 t) r q).trans ?_
  unfold comb
  have h0 : ∀ k : Fin 128, (iblk1 V c 0 t : Vec Ideal S5000x128 .f32) (ix2 r k) = (V c main_v43 : S50000x128.Idx → EReal) (ix2 p k) :=
    fun k => blk0_apply V c t (ix2 r k) (ix2 p k) hp rfl
  have h1 : ∀ k : Fin 128, (iblk1 V c 1 t : Vec Ideal S5000x128 .f32) (ix2 r k) = (V c main_v24 : S50000x128.Idx → EReal) (ix2 p k) :=
    fun k => blk1_apply V c t (ix2 r k) (ix2 p k) hp rfl
  have h2 : ∀ k : Fin 128, (iblk1 V c 2 t : Vec Ideal S128x128 .f32) (ix2 k q) = (V c main_arg5 : S128x128.Idx → EReal) (ix2 k q) :=
    fun k => blk2_apply V c t (ix2 k q)
  have h3 : (iblk1 V c 3 t : Vec Ideal S1x128 .f32) (ix2 (0 : Fin 1) q) = (V c main_v44 : S1x128.Idx → EReal) (ix2 (0 : Fin 1) q) :=
    blk3_apply V c t (ix2 (0 : Fin 1) q)
  have h4 : ∀ k : Fin 128, (iblk1 V c 4 t : Vec Ideal S128x128 .f32) (ix2 k q) = (V c main_arg7 : S128x128.Idx → EReal) (ix2 k q) :=
    fun k => blk4_apply V c t (ix2 k q)
  refine congrArg (fun z => max z (Ideal.ofBits .f32 0x00000000#32)) ?_
  refine congrArg₂ (· + ·) (congrArg₂ (· + ·) ?_ ?_) h3
  · exact Finset.sum_congr rfl fun k _ => congrArg₂ (· * ·) (h0 k) (h2 k)
  · exact Finset.sum_congr rfl fun k _ => congrArg₂ (· * ·) (h1 k) (h4 k)

/-- What point t writes back is block t of the combine of the arrays. -/
theorem flushed_eq (t : Fin cfg1.N) :
    (dat1 V c).flushed 5 t = ((cfg1.win 5).blk t).view.read (Elt Ideal)
      (comb (V c main_v43) (V c main_v24) (V c main_arg5) (V c main_v44) (V c main_arg7)) := by
  show (cfg1.win 5).cut (grid1.coords t) ((dat1 V c).after 5 t) = _
  rw [after1_5]
  funext j
  obtain ⟨r, q, rfl⟩ : ∃ (r : Fin 5000) (q : Fin 128), j = ix2 r q := ⟨j 0, j 1, eq_ix2 j⟩
  rw [View.read_apply]
  have ht := point_lt t
  obtain ⟨-, -, -, -, -, -, -, -, -, -, e0, e1⟩ := idx_facts t
  have hemb : ((cfg1.win 5).blk t).view.emb (ix2 r q) = ix2 (⟨5000 * t.val + r.val, by omega⟩ : Fin 50000) q := by
    funext a; apply Fin.ext
    match a with
    | ⟨0, _⟩ => show win1_5.index t (0 : Fin 2) * 5000 + 1 * r.val = 5000 * t.val + r.val; rw [e0]; omega
    | ⟨1, _⟩ => show win1_5.index t (1 : Fin 2) * 128 + 1 * q.val = q.val; rw [e1]; omega
  rw [hemb]
  exact out_at V c t r q _ rfl

/-- An index of the output array is in point t's block iff its row is one of the block's rows. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- Every row of the output is in the block of the point row / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, by rw [show cfg1.N = 10 from N_1]; omega⟩, flush1_5 _, ?_⟩
  rw [mem_blk]
  obtain ⟨-, -, -, -, -, -, -, -, -, -, e0, e1⟩ := idx_facts ⟨(i 0).val / 5000, by rw [show cfg1.N = 10 from N_1]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- The output array after the region: the combine of the arrays the region found. -/
theorem final : (dat1 V c).arrAt 5 cfg1.N
    = comb (V c main_v43) (V c main_v24) (V c main_arg5) (V c main_v44) (V c main_arg7) :=
  (dat1 V c).arrAt_eq_of_cover 5 _ (fun t _ => flushed_eq V c t) (cover)

end Cert.KernelIdeal.Region1

end
-- ==== Proof.Blocks2.lean ====
/-
  Region 2 of the kernel program, as one function of the arrays it finds. Its grid has ten points; point t stages rows
  5000·t … 5000·t + 4999 of the mean and feature arrays and the whole weight and bias arrays, and writes back rows
  5000·t … 5000·t + 4999 of the output. Entry (r, q) of the written block is the combine formula of rows r of the two
  staged blocks, which are rows 5000·t + r of the arrays: the ten blocks are the restrictions of ONE function of the
  arrays, and they cover the output.
-/
import proofs.«131522_j34600256537257_1_alg».proof.Proof.Gen.KernelIdeal.Frame
import proofs.«131522_j34600256537257_1_alg».proof.Proof.Terms
import proofs.«131522_j34600256537257_1_alg».proof.Proof.Pay
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Cert.KernelIdeal.Terms Idealize.ShloMosaic Idealize.ShloMosaic.TcCoe
open Idealize.ShloMosaic.ValueIdx Idealize.SL.Sem

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The index maps over the grid: the row-tiled windows sit at block (t, 0), the resident ones at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 10 := by
  have h := t.isLt; have hN : cfg2.N = 10 := N_2; omega

/-- Row r of the mean block at point t is row 5000·t + r of the mean array. -/
theorem blk0_apply (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v64 : S50000x128.Idx → EReal) k := by
  obtain ⟨e0, e1, -⟩ := idx_facts t
  unfold iblk2
  rw [View.read_apply]
  show V c main_v64 _ = V c main_v64 _
  refine congrArg (V c main_v64) (funext fun a => Fin.ext ?_)
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- Row r of the feature block at point t is row 5000·t + r of the feature array. -/
theorem blk1_apply (t : Fin cfg2.N) (x : S5000x128.Idx) (k : S50000x128.Idx)
    (hk0 : (k 0).val = 5000 * t.val + (x 0).val) (hk1 : (k 1).val = (x 1).val) :
    (iblk2 V c 1 t : Vec Ideal S5000x128 .f32) x = (V c main_v45 : S50000x128.Idx → EReal) k := by
  obtain ⟨-, -, e0, e1, -⟩ := idx_facts t
  unfold iblk2
  rw [View.read_apply]
  show V c main_v45 _ = V c main_v45 _
  refine congrArg (V c main_v45) (funext fun a => Fin.ext ?_)
  match a with
  | ⟨0, _⟩ => show win2_1.index t (0 : Fin 2) * 5000 + 1 * (x 0).val = (k 0).val; rw [e0, hk0]; omega
  | ⟨1, _⟩ => show win2_1.index t (1 : Fin 2) * 128 + 1 * (x 1).val = (k 1).val; rw [e1, hk1]; omega

/-- The staged left weights are the whole array. -/
theorem blk2_apply (t : Fin cfg2.N) (x : S128x128.Idx) :
    (iblk2 V c 2 t : Vec Ideal S128x128 .f32) x = (V c main_arg8 : S128x128.Idx → EReal) x := by
  obtain ⟨-, -, -, -, e0, e1, -⟩ := idx_facts t
  unfold iblk2
  rw [View.read_apply]
  show V c main_arg8 _ = V c main_arg8 _
  refine congrArg (V c main_arg8) (funext fun a => Fin.ext ?_)
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- The staged bias row is the whole array. -/
theorem blk3_apply (t : Fin cfg2.N) (x : S1x128.Idx) :
    (iblk2 V c 3 t : Vec Ideal S1x128 .f32) x = (V c main_v65 : S1x128.Idx → EReal) x := by
  obtain ⟨-, -, -, -, -, -, e0, e1, -⟩ := idx_facts t
  unfold iblk2
  rw [View.read_apply]
  show V c main_v65 _ = V c main_v65 _
  refine congrArg (V c main_v65) (funext fun a => Fin.ext ?_)
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- The staged right weights are the whole array. -/
theorem blk4_apply (t : Fin cfg2.N) (x : S128x128.Idx) :
    (iblk2 V c 4 t : Vec Ideal S128x128 .f32) x = (V c main_arg10 : S128x128.Idx → EReal) x := by
  obtain ⟨-, -, -, -, -, -, -, -, e0, e1, -⟩ := idx_facts t
  unfold iblk2
  rw [View.read_apply]
  show V c main_arg10 _ = V c main_arg10 _
  refine congrArg (V c main_arg10) (funext fun a => Fin.ext ?_)
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- What the body leaves in the output block, from any five staged blocks, at (r, q). -/
theorem out_apply (x0 x1 : Vec Ideal S5000x128 .f32) (x2 : Vec Ideal S128x128 .f32) (x3 : Vec Ideal S1x128 .f32)
    (x4 : Vec Ideal S128x128 .f32) (r : Fin 5000) (q : Fin 128) :
    out2_5 (F := Ideal) x0 x1 x2 x3 x4 (ix2 r q)
      = max ((∑ k : Fin 128, x0 (ix2 r k) * x2 (ix2 k q) + ∑ k : Fin 128, x1 (ix2 r k) * x4 (ix2 k q))
          + x3 (ix2 (0 : Fin 1) q)) (Ideal.ofBits .f32 0x00000000#32) := by
  unfold out2_5
  rw [View.canon_unit_zero hz]
  simp only [View.ld_unit_zero (S := S5000x128) hz, View.ld_unit_zero (S := S128x128) hz, View.ld_unit_zero (S := S1x128) hz]
  exact Pay.pay2_apply x0 x1 x2 x4 x3 r q

/-- Entry (r, q) of the block point t writes is entry (5000·t + r, q) of the combine of the arrays. -/
theorem out_at (t : Fin cfg2.N) (r : Fin 5000) (q : Fin 128) (p : Fin 50000) (hp : p.val = 5000 * t.val + r.val) :
    out2_5 (F := Ideal) (iblk2 V c 0 t) (iblk2 V c 1 t) (iblk2 V c 2 t) (iblk2 V c 3 t) (iblk2 V c 4 t) (ix2 r q)
      = comb (V c main_v64) (V c main_v45) (V c main_arg8) (V c main_v65) (V c main_arg10) (ix2 p q) := by
  refine (out_apply (iblk2 V c 0 t) (iblk2 V c 1 t) (iblk2 V c 2 t) (iblk2 V c 3 t) (iblk2 V c 4 t) r q).trans ?_
  unfold comb
  have h0 : ∀ k : Fin 128, (iblk2 V c 0 t : Vec Ideal S5000x128 .f32) (ix2 r k) = (V c main_v64 : S50000x128.Idx → EReal) (ix2 p k) :=
    fun k => blk0_apply V c t (ix2 r k) (ix2 p k) hp rfl
  have h1 : ∀ k : Fin 128, (iblk2 V c 1 t : Vec Ideal S5000x128 .f32) (ix2 r k) = (V c main_v45 : S50000x128.Idx → EReal) (ix2 p k) :=
    fun k => blk1_apply V c t (ix2 r k) (ix2 p k) hp rfl
  have h2 : ∀ k : Fin 128, (iblk2 V c 2 t : Vec Ideal S128x128 .f32) (ix2 k q) = (V c main_arg8 : S128x128.Idx → EReal) (ix2 k q) :=
    fun k => blk2_apply V c t (ix2 k q)
  have h3 : (iblk2 V c 3 t : Vec Ideal S1x128 .f32) (ix2 (0 : Fin 1) q) = (V c main_v65 : S1x128.Idx → EReal) (ix2 (0 : Fin 1) q) :=
    blk3_apply V c t (ix2 (0 : Fin 1) q)
  have h4 : ∀ k : Fin 128, (iblk2 V c 4 t : Vec Ideal S128x128 .f32) (ix2 k q) = (V c main_arg10 : S128x128.Idx → EReal) (ix2 k q) :=
    fun k => blk4_apply V c t (ix2 k q)
  refine congrArg (fun z => max z (Ideal.ofBits .f32 0x00000000#32)) ?_
  refine congrArg₂ (· + ·) (congrArg₂ (· + ·) ?_ ?_) h3
  · exact Finset.sum_congr rfl fun k _ => congrArg₂ (· * ·) (h0 k) (h2 k)
  · exact Finset.sum_congr rfl fun k _ => congrArg₂ (· * ·) (h1 k) (h4 k)

/-- What point t writes back is block t of the combine of the arrays. -/
theorem flushed_eq (t : Fin cfg2.N) :
    (dat2 V c).flushed 5 t = ((cfg2.win 5).blk t).view.read (Elt Ideal)
      (comb (V c main_v64) (V c main_v45) (V c main_arg8) (V c main_v65) (V c main_arg10)) := by
  show (cfg2.win 5).cut (grid2.coords t) ((dat2 V c).after 5 t) = _
  rw [after2_5]
  funext j
  obtain ⟨r, q, rfl⟩ : ∃ (r : Fin 5000) (q : Fin 128), j = ix2 r q := ⟨j 0, j 1, eq_ix2 j⟩
  rw [View.read_apply]
  have ht := point_lt t
  obtain ⟨-, -, -, -, -, -, -, -, -, -, e0, e1⟩ := idx_facts t
  have hemb : ((cfg2.win 5).blk t).view.emb (ix2 r q) = ix2 (⟨5000 * t.val + r.val, by omega⟩ : Fin 50000) q := by
    funext a; apply Fin.ext
    match a with
    | ⟨0, _⟩ => show win2_5.index t (0 : Fin 2) * 5000 + 1 * r.val = 5000 * t.val + r.val; rw [e0]; omega
    | ⟨1, _⟩ => show win2_5.index t (1 : Fin 2) * 128 + 1 * q.val = q.val; rw [e1]; omega
  rw [hemb]
  exact out_at V c t r q _ rfl

/-- An index of the output array is in point t's block iff its row is one of the block's rows. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v66).slice (win2_5.rect t)).set ↔ _
  rw [View.set_slice_whole, Rect.mem_set_unit]
  exact Iff.rfl

/-- Every row of the output is in the block of the point row / 5000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  refine ⟨⟨(i 0).val / 5000, by rw [show cfg2.N = 10 from N_2]; omega⟩, flush2_5 _, ?_⟩
  rw [mem_blk]
  obtain ⟨-, -, -, -, -, -, -, -, -, -, e0, e1⟩ := idx_facts ⟨(i 0).val / 5000, by rw [show cfg2.N = 10 from N_2]; omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e1]; omega

/-- The output array after the region: the combine of the arrays the region found. -/
theorem final : (dat2 V c).arrAt 5 cfg2.N
    = comb (V c main_v64) (V c main_v45) (V c main_arg8) (V c main_v65) (V c main_arg10) :=
  (dat2 V c).arrAt_eq_of_cover 5 _ (fun t _ => flushed_eq V c t) (cover)

end Cert.KernelIdeal.Region2

end
-- ==== Proof.Blocks3.lean ====
/-
  Region 3 of the kernel program (the final linear layer), as one function of the arrays it finds. Its grid has ten
  points; point t stages rows 5000·t … 5000·t + 4999 of the feature array and the whole weight and bias arrays, and
  writes back rows 5000·t … 5000·t + 4999 of the 16-column output: the ten blocks are the restrictions of ONE function
  of the arrays, and they cover the output.
-/
import proofs.«131522_j34600256537257_1_alg».proof.Proof.Gen.KernelIdeal.Frame
import proofs.«131522_j34600256537257_1_alg».proof.Proof.Terms
import proofs.«131522_j34600256537257_1_alg».proof.Proof.Pay
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen Cert.KernelIdeal.Terms Idealize.ShloMosaic Idealize.ShloMosaic.TcCoe
open Idealize.ShloMosaic.ValueIdx Idealize.SL.Sem

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The index maps over the grid: the row-tiled windows sit at block (t, 0), the resident ones at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem point_lt (t : Fin cfg3.N) : t.val < 10 := by
  have h := t.isLt; have hN : cfg3.N = 10 := N_3; omega

/-- Row r of the feature block at point t is row 5000·t + r of the feature array. -/
theorem blk0_apply (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c main_v66 : S50000x128.Idx → EReal) k := by
  obtain ⟨e0, e1, -⟩ := idx_facts t
  unfold iblk3
  rw [View.read_apply]
  show V c main_v66 _ = V c main_v66 _
  refine congrArg (V c main_v66) (funext fun a => Fin.ext ?_)
  match a with
  | ⟨0, _⟩ => show win3_0.index t (0 : Fin 2) * 5000 + 1 * (x 0).val = (k 0).val; rw [e0, hk0]; omega
  | ⟨1, _⟩ => show win3_0.index t (1 : Fin 2) * 128 + 1 * (x 1).val = (k 1).val; rw [e1, hk1]; omega

/-- The staged weights are the whole array. -/
theorem blk1_apply (t : Fin cfg3.N) (x : S128x16.Idx) :
    (iblk3 V c 1 t : Vec Ideal S128x16 .f32) x = (V c main_arg11 : S128x16.Idx → EReal) x := by
  obtain ⟨-, -, e0, e1, -⟩ := idx_facts t
  unfold iblk3
  rw [View.read_apply]
  show V c main_arg11 _ = V c main_arg11 _
  refine congrArg (V c main_arg11) (funext fun a => Fin.ext ?_)
  match a with
  | ⟨0, _⟩ => show win3_1.index t (0 : Fin 2) * 128 + 1 * (x 0).val = (x 0).val; rw [e0]; omega
  | ⟨1, _⟩ => show win3_1.index t (1 : Fin 2) * 16 + 1 * (x 1).val = (x 1).val; rw [e1]; omega

/-- The staged bias row is the whole array. -/
theorem blk2_apply (t : Fin cfg3.N) (x : S1x16.Idx) :
    (iblk3 V c 2 t : Vec Ideal S1x16 .f32) x = (V c main_v67 : S1x16.Idx → EReal) x := by
  obtain ⟨-, -, -, -, e0, e1, -⟩ := idx_facts t
  unfold iblk3
  rw [View.read_apply]
  show V c main_v67 _ = V c main_v67 _
  refine congrArg (V c main_v67) (funext fun a => Fin.ext ?_)
  match a with
  | ⟨0, _⟩ => show win3_2.index t (0 : Fin 2) * 1 + 1 * (x 0).val = (x 0).val; rw [e0]; omega
  | ⟨1, _⟩ => show win3_2.index t (1 : Fin 2) * 16 + 1 * (x 1).val = (x 1).val; rw [e1]; omega

/-- What the body leaves in the output block, from any three staged blocks, at (r, q). -/
theorem out_apply (x0 : Vec Ideal S5000x128 .f32) (x1 : Vec Ideal S128x16 .f32) (x2 : Vec Ideal S1x16 .f32)
    (r : Fin 5000) (q : Fin 16) :
    out3_3 (F := Ideal) x0 x1 x2 (ix2 r q)
      = (∑ k : Fin 128, x0 (ix2 r k) * x1 (ix2 k q)) + x2 (ix2 (0 : Fin 1) q) := by
  unfold out3_3
  rw [View.canon_unit_zero hz]
  simp only [View.ld_unit_zero (S := S5000x128) hz, View.ld_unit_zero (S := S128x16) hz, View.ld_unit_zero (S := S1x16) hz]
  exact Pay.pay3_apply x0 x1 x2 r q

/-- Entry (r, q) of the block point t writes is entry (5000·t + r, q) of the linear layer of the arrays. -/
theorem out_at (t : Fin cfg3.N) (r : Fin 5000) (q : Fin 16) (p : Fin 50000) (hp : p.val = 5000 * t.val + r.val) :
    out3_3 (F := Ideal) (iblk3 V c 0 t) (iblk3 V c 1 t) (iblk3 V c 2 t) (ix2 r q)
      = lin (V c main_v66) (V c main_arg11) (V c main_v67) (ix2 p q) := by
  refine (out_apply (iblk3 V c 0 t) (iblk3 V c 1 t) (iblk3 V c 2 t) r q).trans ?_
  unfold lin
  have h0 : ∀ k : Fin 128, (iblk3 V c 0 t : Vec Ideal S5000x128 .f32) (ix2 r k) = (V c main_v66 : S50000x128.Idx → EReal) (ix2 p k) :=
    fun k => blk0_apply V c t (ix2 r k) (ix2 p k) hp rfl
  have h1 : ∀ k : Fin 128, (iblk3 V c 1 t : Vec Ideal S128x16 .f32) (ix2 k q) = (V c main_arg11 : S128x16.Idx → EReal) (ix2 k q) :=
    fun k => blk1_apply V c t (ix2 k q)
  have h2 : (iblk3 V c 2 t : Vec Ideal S1x16 .f32) (ix2 (0 : Fin 1) q) = (V c main_v67 : S1x16.Idx → EReal) (ix2 (0 : Fin 1) q) :=
    blk2_apply V c t (ix2 (0 : Fin 1) q)
  refine congrArg₂ (· + ·) ?_ h2
  exact Finset.sum_congr rfl fun k _ => congrArg₂ (· * ·) (h0 k) (h1 k)

/-- What point t writes back is block t of the linear layer of the arrays. -/
theorem flushed_eq (t : Fin cfg3.N) :
    (dat3 V c).flushed 3 t = ((cfg3.win 3).blk t).view.read (Elt Ideal)
      (lin (V c main_v66) (V c main_arg11) (V c main_v67)) := by
  show (cfg3.win 3).cut (grid3.coords t) ((dat3 V c).after 3 t) = _
  rw [after3_3]
  funext j
  obtain ⟨r, q, rfl⟩ : ∃ (r : Fin 5000) (q : Fin 16), j = ix2 r q := ⟨j 0, j 1, eq_ix2 j⟩
  rw [View.read_apply]
  have ht := point_lt t
  obtain ⟨-, -, -, -, -, -, e0, e1⟩ := idx_facts t
  have hemb : ((cfg3.win 3).blk t).view.emb (ix2 r q) = ix2 (⟨5000 * t.val + r.val, by omega⟩ : Fin 50000) q := by
    funext a; apply Fin.ext
    match a with
    | ⟨0, _⟩ => show win3_3.index t (0 : Fin 2) * 5000 + 1 * r.val = 5000 * t.val + r.val; rw [e0]; omega
    | ⟨1, _⟩ => show win3_3.index t (1 : Fin 2) * 16 + 1 * q.val = q.val; rw [e1]; omega
  rw [hemb]
  exact out_at V c t r q _ rfl

/-- An index of the output array is in point t's block iff its row is one of the block's rows. -/
theorem mem_blk (t : Fin cfg3.N) (i : S50000x16.Idx) :
    i ∈ ((cfg3.win 3).blk t).view.set ↔ ∀ a : Fin 2, win3_3.index t a * S5000x16.size a ≤ (i a).val
      ∧ (i a).val < win3_3.index t a * S5000x16.size a + S5000x16.size a := by
  show i ∈ ((View.whole main_v68).slice (win3_3.rect t)).set ↔ _
  rw [View.set_slice_whole, Rect.mem_set_unit]
  exact Iff.rfl

/-- Every row of the output is in the block of the point row / 5000. -/
theorem cover (i : S50000x16.Idx) :
    ∃ t : Fin cfg3.N, (cfg3.win 3).flush t = true ∧ i ∈ ((cfg3.win 3).blk t).view.set := by
  have hi0 : (i 0).val < 50000 := (i 0).isLt
  have hi1 : (i 1).val < 16 := (i 1).isLt
  refine ⟨⟨(i 0).val / 5000, by rw [show cfg3.N = 10 from N_3]; omega⟩, flush3_3 _, ?_⟩
  rw [mem_blk]
  obtain ⟨-, -, -, -, -, -, e0, e1⟩ := idx_facts ⟨(i 0).val / 5000, by rw [show cfg3.N = 10 from N_3]; omega⟩
  intro a
  match a with
  | ⟨0, _⟩ =>
    show win3_3.index _ (0 : Fin 2) * 5000 ≤ (i 0).val ∧ (i 0).val < win3_3.index _ (0 : Fin 2) * 5000 + 5000
    rw [e0]; show (i 0).val / 5000 * 5000 ≤ (i 0).val ∧ (i 0).val < (i 0).val / 5000 * 5000 + 5000; omega
  | ⟨1, _⟩ =>
    show win3_3.index _ (1 : Fin 2) * 16 ≤ (i 1).val ∧ (i 1).val < win3_3.index _ (1 : Fin 2) * 16 + 16
    rw [e1]; omega

/-- The output array after the region: the linear layer of the arrays the region found. -/
theorem final : (dat3 V c).arrAt 3 cfg3.N = lin (V c main_v66) (V c main_arg11) (V c main_v67) :=
  (dat3 V c).arrAt_eq_of_cover 3 _ (fun t _ => flushed_eq V c t) (cover)

end Cert.KernelIdeal.Region3

end
-- ==== Proof.Walk.lean ====
/-
  What each region's input arrays hold when the region is entered, as functions of the launch memory.

  Between the launch and a region's entry a buffer is rewritten only by the host operation whose result it is and by
  the region whose output array it is. An argument buffer is written by neither, so at every region's entry it holds
  what the launch memory holds. A bias row is a host reshape of an argument, evaluated in the stretch that precedes its
  region. A neighbour mean is the host's gather / scatter-add / divide over the features the previous region left
  (or the argument, for the first layer) and the two rows of the edge list, which the first stretch slices off once
  and every later stretch reads again, unchanged.
-/
import proofs.«131522_j34600256537257_1_alg».proof.Proof.Gen.KernelIdeal.Frame
import proofs.«131522_j34600256537257_1_alg».proof.Proof.Terms
import Idealize.ShloMosaic.Lib.StableHlo.Run
set_option maxRecDepth 16384
noncomputable section
namespace Cert.KernelIdeal.Walk
open Cert.KernelIdeal Cert.KernelIdeal.Gen Idealize.ShloMosaic Idealize.ShloMosaic.TcCoe Idealize.SL.Sem
variable (m : (ℓ : Loc nD τ sig) → Buf (Elt Ideal) ℓ) (ρ : Dev nD → PrngReg) (c : Dev nD)

/-- Across a host stretch a buffer that none of its operations writes keeps its contents: the stretch's list of
    operations is unfolded, each operation's set of written buffers is a singleton, and the buffer differs from each. -/
local macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments: no host operation and no region writes one, so at every region's entry an argument's buffer
    holds what the launch memory holds -/
theorem V1_arg0 : V1 m ρ c main_arg0 = m ((c : Thread nD τ).loc main_arg0) :=
  calc W1 m ρ c (Proc.devRef .tc main_arg0)
    _ = W0 m ρ c (Proc.devRef .tc main_arg0) := (by host_keep hostOps0)
    _ = m ((c : Thread nD τ).loc main_arg0) := rfl
theorem V1_arg2 : V1 m ρ c main_arg2 = m ((c : Thread nD τ).loc main_arg2) :=
  calc W1 m ρ c (Proc.devRef .tc main_arg2)
    _ = W0 m ρ c (Proc.devRef .tc main_arg2) := (by host_keep hostOps0)
    _ = m ((c : Thread nD τ).loc main_arg2) := rfl
theorem V1_arg4 : V1 m ρ c main_arg4 = m ((c : Thread nD τ).loc main_arg4) :=
  calc W1 m ρ c (Proc.devRef .tc main_arg4)
    _ = W0 m ρ c (Proc.devRef .tc main_arg4) := (by host_keep hostOps0)
    _ = m ((c : Thread nD τ).loc main_arg4) := rfl
theorem V3_arg5 : V3 m ρ c main_arg5 = m ((c : Thread nD τ).loc main_arg5) :=
  calc W3 m ρ c (Proc.devRef .tc main_arg5)
    _ = W2 m ρ c (Proc.devRef .tc main_arg5) := (by host_keep hostOps1)
    _ = W1 m ρ c (Proc.devRef .tc main_arg5) := (W2_of_ne m ρ c main_arg5 (by decide))
    _ = W0 m ρ c (Proc.devRef .tc main_arg5) := (by host_keep hostOps0)
    _ = m ((c : Thread nD τ).loc main_arg5) := rfl
theorem V3_arg7 : V3 m ρ c main_arg7 = m ((c : Thread nD τ).loc main_arg7) :=
  calc W3 m ρ c (Proc.devRef .tc main_arg7)
    _ = W2 m ρ c (Proc.devRef .tc main_arg7) := (by host_keep hostOps1)
    _ = W1 m ρ c (Proc.devRef .tc main_arg7) := (W2_of_ne m ρ c main_arg7 (by decide))
    _ = W0 m ρ c (Proc.devRef .tc main_arg7) := (by host_keep hostOps0)
    _ = m ((c : Thread nD τ).loc main_arg7) := rfl
theorem V5_arg8 : V5 m ρ c main_arg8 = m ((c : Thread nD τ).loc main_arg8) :=
  calc W5 m ρ c (Proc.devRef .tc main_arg8)
    _ = W4 m ρ c (Proc.devRef .tc main_arg8) := (by host_keep hostOps2)
    _ = W3 m ρ c (Proc.devRef .tc main_arg8) := (W4_of_ne m ρ c main_arg8 (by decide))
    _ = W2 m ρ c (Proc.devRef .tc main_arg8) := (by host_keep hostOps1)
    _ = W1 m ρ c (Proc.devRef .tc main_arg8) := (W2_of_ne m ρ c main_arg8 (by decide))
    _ = W0 m ρ c (Proc.devRef .tc main_arg8) := (by host_keep hostOps0)
    _ = m ((c : Thread nD τ).loc main_arg8) := rfl
theorem V5_arg10 : V5 m ρ c main_arg10 = m ((c : Thread nD τ).loc main_arg10) :=
  calc W5 m ρ c (Proc.devRef .tc main_arg10)
    _ = W4 m ρ c (Proc.devRef .tc main_arg10) := (by host_keep hostOps2)
    _ = W3 m ρ c (Proc.devRef .tc main_arg10) := (W4_of_ne m ρ c main_arg10 (by decide))
    _ = W2 m ρ c (Proc.devRef .tc main_arg10) := (by host_keep hostOps1)
    _ = W1 m ρ c (Proc.devRef .tc main_arg10) := (W2_of_ne m ρ c main_arg10 (by decide))
    _ = W0 m ρ c (Proc.devRef .tc main_arg10) := (by host_keep hostOps0)
    _ = m ((c : Thread nD τ).loc main_arg10) := rfl
theorem V7_arg11 : V7 m ρ c main_arg11 = m ((c : Thread nD τ).loc main_arg11) :=
  calc W7 m ρ c (Proc.devRef .tc main_arg11)
    _ = W6 m ρ c (Proc.devRef .tc main_arg11) := (by host_keep hostOps3)
    _ = W5 m ρ c (Proc.devRef .tc main_arg11) := (W6_of_ne m ρ c main_arg11 (by decide))
    _ = W4 m ρ c (Proc.devRef .tc main_arg11) := (by host_keep hostOps2)
    _ = W3 m ρ c (Proc.devRef .tc main_arg11) := (W4_of_ne m ρ c main_arg11 (by decide))
    _ = W2 m ρ c (Proc.devRef .tc main_arg11) := (by host_keep hostOps1)
    _ = W1 m ρ c (Proc.devRef .tc main_arg11) := (W2_of_ne m ρ c main_arg11 (by decide))
    _ = W0 m ρ c (Proc.devRef .tc main_arg11) := (by host_keep hostOps0)
    _ = m ((c : Thread nD τ).loc main_arg11) := rfl

/-- The bias arguments of the later layers, where the stretch that reshapes each one finds them. -/
theorem W2_arg6 : W2 m ρ c (Proc.devRef .tc main_arg6) = m ((c : Thread nD τ).loc main_arg6) :=
  calc W2 m ρ c (Proc.devRef .tc main_arg6)
    _ = W1 m ρ c (Proc.devRef .tc main_arg6) := (W2_of_ne m ρ c main_arg6 (by decide))
    _ = W0 m ρ c (Proc.devRef .tc main_arg6) := (by host_keep hostOps0)
    _ = m ((c : Thread nD τ).loc main_arg6) := rfl
theorem W4_arg9 : W4 m ρ c (Proc.devRef .tc main_arg9) = m ((c : Thread nD τ).loc main_arg9) :=
  calc W4 m ρ c (Proc.devRef .tc main_arg9)
    _ = W3 m ρ c (Proc.devRef .tc main_arg9) := (W4_of_ne m ρ c main_arg9 (by decide))
    _ = W2 m ρ c (Proc.devRef .tc main_arg9) := (by host_keep hostOps1)
    _ = W1 m ρ c (Proc.devRef .tc main_arg9) := (W2_of_ne m ρ c main_arg9 (by decide))
    _ = W0 m ρ c (Proc.devRef .tc main_arg9) := (by host_keep hostOps0)
    _ = m ((c : Thread nD τ).loc main_arg9) := rfl
theorem W6_arg12 : W6 m ρ c (Proc.devRef .tc main_arg12) = m ((c : Thread nD τ).loc main_arg12) :=
  calc W6 m ρ c (Proc.devRef .tc main_arg12)
    _ = W5 m ρ c (Proc.devRef .tc main_arg12) := (W6_of_ne m ρ c main_arg12 (by decide))
    _ = W4 m ρ c (Proc.devRef .tc main_arg12) := (by host_keep hostOps2)
    _ = W3 m ρ c (Proc.devRef .tc main_arg12) := (W4_of_ne m ρ c main_arg12 (by decide))
    _ = W2 m ρ c (Proc.devRef .tc main_arg12) := (by host_keep hostOps1)
    _ = W1 m ρ c (Proc.devRef .tc main_arg12) := (W2_of_ne m ρ c main_arg12 (by decide))
    _ = W0 m ρ c (Proc.devRef .tc main_arg12) := (by host_keep hostOps0)
    _ = m ((c : Thread nD τ).loc main_arg12) := rfl

/-! ## The previous region's output, read again by the next region: the stretch between does not write it -/
theorem V3_feat : V3 m ρ c main_v24 = W2 m ρ c (Proc.devRef .tc main_v24) := by host_keep hostOps1
theorem V5_feat : V5 m ρ c main_v45 = W4 m ρ c (Proc.devRef .tc main_v45) := by host_keep hostOps2
theorem V7_feat : V7 m ρ c main_v66 = W6 m ρ c (Proc.devRef .tc main_v66) := by host_keep hostOps3

/-! ## The bias rows: each a host reshape of an argument, in the stretch before its region -/
theorem V1_bias : V1 m ρ c main_v23 = Terms.row128 (F := Ideal) (m ((c : Thread nD τ).loc main_arg3)) := by
  show StableHlo.after hostOps0 (W0 m ρ c) (Proc.devRef .tc main_v23) = _
  after_results_simp
  rfl
theorem V3_bias : V3 m ρ c main_v44 = Terms.row128 (F := Ideal) (m ((c : Thread nD τ).loc main_arg6)) := by
  show StableHlo.after hostOps1 (W2 m ρ c) (Proc.devRef .tc main_v44) = _
  after_results_simp
  rw [W2_arg6 m ρ c]
  rfl
theorem V5_bias : V5 m ρ c main_v65 = Terms.row128 (F := Ideal) (m ((c : Thread nD τ).loc main_arg9)) := by
  show StableHlo.after hostOps2 (W4 m ρ c) (Proc.devRef .tc main_v65) = _
  after_results_simp
  rw [W4_arg9 m ρ c]
  rfl
theorem V7_bias : V7 m ρ c main_v67 = Terms.row16 (F := Ideal) (m ((c : Thread nD τ).loc main_arg12)) := by
  show StableHlo.after hostOps3 (W6 m ρ c) (Proc.devRef .tc main_v67) = _
  after_results_simp
  rw [W6_arg12 m ρ c]
  rfl

/-! ## The two rows of the edge list: sliced off the edge argument by the first stretch, written by nothing after,
    and read again by the second and third stretches -/
theorem W1_src : W1 m ρ c (Proc.devRef .tc main_v1) = Terms.src (F := Ideal) (m ((c : Thread nD τ).loc main_arg1)) := by
  show StableHlo.after hostOps0 (W0 m ρ c) (Proc.devRef .tc main_v1) = _
  after_results_simp
  rfl
theorem W1_dst : W1 m ρ c (Proc.devRef .tc main_v3) = Terms.dst (F := Ideal) (m ((c : Thread nD τ).loc main_arg1)) := by
  show StableHlo.after hostOps0 (W0 m ρ c) (Proc.devRef .tc main_v3) = _
  after_results_simp
  rfl
theorem W2_src : W2 m ρ c (Proc.devRef .tc main_v1) = Terms.src (F := Ideal) (m ((c : Thread nD τ).loc main_arg1)) :=
  calc W2 m ρ c (Proc.devRef .tc main_v1)
    _ = W1 m ρ c (Proc.devRef .tc main_v1) := (W2_of_ne m ρ c main_v1 (by decide))
    _ = Terms.src (F := Ideal) (m ((c : Thread nD τ).loc main_arg1)) := W1_src m ρ c

theorem W2_dst : W2 m ρ c (Proc.devRef .tc main_v3) = Terms.dst (F := Ideal) (m ((c : Thread nD τ).loc main_arg1)) :=
  calc W2 m ρ c (Proc.devRef .tc main_v3)
    _ = W1 m ρ c (Proc.devRef .tc main_v3) := (W2_of_ne m ρ c main_v3 (by decide))
    _ = Terms.dst (F := Ideal) (m ((c : Thread nD τ).loc main_arg1)) := W1_dst m ρ c

theorem W4_src : W4 m ρ c (Proc.devRef .tc main_v1) = Terms.src (F := Ideal) (m ((c : Thread nD τ).loc main_arg1)) :=
  calc W4 m ρ c (Proc.devRef .tc main_v1)
    _ = W3 m ρ c (Proc.devRef .tc main_v1) := (W4_of_ne m ρ c main_v1 (by decide))
    _ = W2 m ρ c (Proc.devRef .tc main_v1) := (by host_keep hostOps1)
    _ = Terms.src (F := Ideal) (m ((c : Thread nD τ).loc main_arg1)) := W2_src m ρ c

theorem W4_dst : W4 m ρ c (Proc.devRef .tc main_v3) = Terms.dst (F := Ideal) (m ((c : Thread nD τ).loc main_arg1)) :=
  calc W4 m ρ c (Proc.devRef .tc main_v3)
    _ = W3 m ρ c (Proc.devRef .tc main_v3) := (W4_of_ne m ρ c main_v3 (by decide))
    _ = W2 m ρ c (Proc.devRef .tc main_v3) := (by host_keep hostOps1)
    _ = Terms.dst (F := Ideal) (m ((c : Thread nD τ).loc main_arg1)) := W2_dst m ρ c

/-! ## The neighbour means: the stretch's gather, scatter-adds, maximum and divide over the features it finds and the
    two rows of the edge list -/
theorem V1_mean : V1 m ρ c main_v22 = Terms.agg (F := Ideal) (m ((c : Thread nD τ).loc main_arg0)) (Terms.src (F := Ideal) (m ((c : Thread nD τ).loc main_arg1))) (Terms.dst (F := Ideal) (m ((c : Thread nD τ).loc main_arg1))) := by
  show StableHlo.after hostOps0 (W0 m ρ c) (Proc.devRef .tc main_v22) = _
  after_results_simp
  rfl
theorem V3_mean : V3 m ρ c main_v43 = Terms.agg (F := Ideal) (W2 m ρ c (Proc.devRef .tc main_v24)) (Terms.src (F := Ideal) (m ((c : Thread nD τ).loc main_arg1))) (Terms.dst (F := Ideal) (m ((c : Thread nD τ).loc main_arg1))) := by
  show StableHlo.after hostOps1 (W2 m ρ c) (Proc.devRef .tc main_v43) = _
  after_results_simp
  rw [W2_src m ρ c, W2_dst m ρ c]
  rfl
theorem V5_mean : V5 m ρ c main_v64 = Terms.agg (F := Ideal) (W4 m ρ c (Proc.devRef .tc main_v45)) (Terms.src (F := Ideal) (m ((c : Thread nD τ).loc main_arg1))) (Terms.dst (F := Ideal) (m ((c : Thread nD τ).loc main_arg1))) := by
  show StableHlo.after hostOps2 (W4 m ρ c) (Proc.devRef .tc main_v64) = _
  after_results_simp
  rw [W4_src m ρ c, W4_dst m ρ c]
  rfl

end Cert.KernelIdeal.Walk
-- ==== Proof.Chain.lean ====
/-
  The kernel program's result array as one function of the thirteen arguments. Each region's output is the combine
  (or the linear layer) of the arrays the region finds; those are arguments as launched, the bias as a one-row matrix,
  the previous region's output, and the neighbour mean the host stretch before the region computes from the previous
  region's output and the edge list. Composed: three layers and the linear layer.
-/
import proofs.«131522_j34600256537257_1_alg».proof.Proof.Gen.KernelIdeal.Frame
import proofs.«131522_j34600256537257_1_alg».proof.Proof.Terms
import proofs.«131522_j34600256537257_1_alg».proof.Proof.Blocks0
import proofs.«131522_j34600256537257_1_alg».proof.Proof.Blocks1
import proofs.«131522_j34600256537257_1_alg».proof.Proof.Blocks2
import proofs.«131522_j34600256537257_1_alg».proof.Proof.Blocks3
import proofs.«131522_j34600256537257_1_alg».proof.Proof.Walk

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The first layer's output array. -/
theorem out0 : W2 m ρ c (Proc.devRef .tc main_v24)
    = Terms.layer (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((Region0.final (V1 m ρ) c).trans (by
    rw [Walk.V1_mean m ρ c, Walk.V1_arg0 m ρ c, Walk.V1_arg2 m ρ c, Walk.V1_bias m ρ c, Walk.V1_arg4 m ρ c]
    rfl))

/-- The second layer's output array, from the first's. -/
theorem out1 : W4 m ρ c (Proc.devRef .tc main_v45)
    = Terms.layer (W2 m ρ c (Proc.devRef .tc main_v24)) (m ((c : Thread nD τ).loc main_arg1)) (m ((c : Thread nD τ).loc main_arg5)) (m ((c : Thread nD τ).loc main_arg6)) (m ((c : Thread nD τ).loc main_arg7)) :=
  (W4_arr m ρ c 5).trans ((Region1.final (V3 m ρ) c).trans (by
    rw [Walk.V3_mean m ρ c, Walk.V3_feat m ρ c, Walk.V3_arg5 m ρ c, Walk.V3_bias m ρ c, Walk.V3_arg7 m ρ c]
    rfl))

/-- The third layer's output array, from the second's. -/
theorem out2 : W6 m ρ c (Proc.devRef .tc main_v66)
    = Terms.layer (W4 m ρ c (Proc.devRef .tc main_v45)) (m ((c : Thread nD τ).loc main_arg1)) (m ((c : Thread nD τ).loc main_arg8)) (m ((c : Thread nD τ).loc main_arg9)) (m ((c : Thread nD τ).loc main_arg10)) :=
  (W6_arr m ρ c 5).trans ((Region2.final (V5 m ρ) c).trans (by
    rw [Walk.V5_mean m ρ c, Walk.V5_feat m ρ c, Walk.V5_arg8 m ρ c, Walk.V5_bias m ρ c, Walk.V5_arg10 m ρ c]
    rfl))

/-- The result array, from the third layer's. -/
theorem out3 : W8 m ρ c (Proc.devRef .tc main_v68)
    = Terms.lin (W6 m ρ c (Proc.devRef .tc main_v66)) (m ((c : Thread nD τ).loc main_arg11)) (Terms.row16 (F := Ideal) (m ((c : Thread nD τ).loc main_arg12))) :=
  (W8_arr m ρ c 3).trans ((Region3.final (V7 m ρ) c).trans (by
    rw [Walk.V7_feat m ρ c, Walk.V7_arg11 m ρ c, Walk.V7_bias m ρ c]))

/-- The result array as the three layers and the linear layer of the arguments. -/
theorem result : W8 m ρ c (Proc.devRef .tc main_v68)
    = Terms.total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [out3 m ρ c, out2 m ρ c, out1 m ρ c, out0 m ρ c]
  rfl

end Cert.KernelIdeal.Chain

end
-- ==== Proof.RefSide.lean ====
/-
  The reference's result term is its three layers and final linear layer of the thirteen arguments: the composed term
  of its host operations, regrouped layer by layer (the neighbour mean of each layer is the same host operations applied
  to that layer's input).
-/
import proofs.«131522_j34600256537257_1_alg».proof.Proof.Terms
import proofs.«131522_j34600256537257_1_alg».proof.Proof.Gen.ReferenceIdeal.Run

noncomputable section

namespace Cert.ReferenceIdeal.RefValue

open Cert.ReferenceIdeal Idealize.ShloMosaic Idealize.ShloMosaic.TcCoe Idealize.SL.Sem

set_option maxRecDepth 8192 in
/-- The run's result term, regrouped. -/
theorem res_eq (m : (ℓ : Loc nD τ sig) → Buf (Elt Ideal) ℓ) (c : Dev nD) :
    Cert.ReferenceIdeal.Value.res_main_v85 (F := Ideal) m c
      = Cert.ReferenceIdeal.Terms.total (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  unfold Cert.ReferenceIdeal.Value.res_main_v85
  rfl

end Cert.ReferenceIdeal.RefValue

end
-- ==== Proof.Bridge.lean ====
/-
  The two programs' whole-array functions are equal.

  Both programs compute the neighbour mean by the same host operations, so the two means are the same term. A layer's
  entry (p, q) is max((Σₖ mean[p,k]·Wl[k,q] + b[q]) + Σₖ h[p,k]·Wr[k,q], 0) in the reference and
  max((Σₖ mean[p,k]·Wl[k,q] + Σₖ h[p,k]·Wr[k,q]) + b[q], 0) in the kernel's program: the two differ by the order of
  the three summands, and addition on the extended reals is commutative and associative. The last stage's entry
  (p, q) is Σₖ h[p,k]·W[k,q] + b[q] in both.
-/
import proofs.«131522_j34600256537257_1_alg».proof.Proof.Terms
import proofs.«131522_j34600256537257_1_alg».proof.Proof.LibMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge

open Idealize.ShloMosaic Idealize.ShloMosaic.ValueIdx

/-! ## The reference's operations read at an index -/

/-- The reference's 128-column product at (p, q) is the textbook sum. -/
theorem dot128_apply (L : FVec Ideal Cert.ReferenceIdeal.S50000x128 .f32) (W : FVec Ideal Cert.ReferenceIdeal.S128x128 .f32)
    (p : Fin 50000) (q : Fin 128) :
    Host.dotGeneral (F := Ideal) Cert.ReferenceIdeal.dot_S50000x128_S128x128_S50000x128_1_0_0_1_n_n none L W (ix2 p q)
      = ∑ k : Fin 128, L (ix2 p k) * W (ix2 k q) :=
  LibMatmul.dotGeneral_apply (M := 50000) (K := 128) (N := 128) none .single L W p q

/-- The reference's 16-column product at (p, q) is the textbook sum. -/
theorem dot16_apply (L : FVec Ideal Cert.ReferenceIdeal.S50000x128 .f32) (W : FVec Ideal Cert.ReferenceIdeal.S128x16 .f32)
    (p : Fin 50000) (q : Fin 16) :
    Host.dotGeneral (F := Ideal) Cert.ReferenceIdeal.dot_S50000x128_S128x16_S50000x16_1_0_0_1_n_n none L W (ix2 p q)
      = ∑ k : Fin 128, L (ix2 p k) * W (ix2 k q) :=
  LibMatmul.dotGeneral_apply (M := 50000) (K := 128) (N := 16) none .single L W p q

/-- A 128-vector broadcast along the rows reads, at (p, q), its entry q. -/
theorem bias128_apply (b : FVec Ideal Cert.ReferenceIdeal.S128 .f32) (p : Fin 50000) (q : Fin 128) :
    broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 b) (ix2 p q)
      = b (ix1 q) := by
  refine (broadcastInDim_apply _ Cert.ReferenceIdeal.Facts₀.bcast_S1x128_S50000x128_0_1 _ (ix2 p q) (ix2 (0 : Fin 1) q)
    (fun a => match a with
      | ⟨0, _⟩ => by show 0 = if (1 : Nat) = 1 then 0 else p.val; rw [if_pos rfl]
      | ⟨1, _⟩ => by show q.val = if (128 : Nat) = 1 then 0 else q.val; rw [if_neg (by decide)])).trans ?_
  exact broadcastInDim_apply _ Cert.ReferenceIdeal.Facts₀.bcast_S128_S1x128_1 b (ix2 (0 : Fin 1) q) (ix1 q)
    (fun a => match a with
      | ⟨0, _⟩ => by show q.val = if (128 : Nat) = 1 then 0 else q.val; rw [if_neg (by decide)])

/-- A 16-vector broadcast along the rows reads, at (p, q), its entry q. -/
theorem bias16_apply (b : FVec Ideal Cert.ReferenceIdeal.S16 .f32) (p : Fin 50000) (q : Fin 16) :
    broadcastInDim Cert.ReferenceIdeal.S50000x16 ![0, 1] Cert.ReferenceIdeal.Facts₀.bcast_S1x16_S50000x16_0_1
        (broadcastInDim Cert.ReferenceIdeal.S1x16 ![1] Cert.ReferenceIdeal.Facts₀.bcast_S16_S1x16_1 b) (ix2 p q)
      = b (ix1 q) := by
  refine (broadcastInDim_apply _ Cert.ReferenceIdeal.Facts₀.bcast_S1x16_S50000x16_0_1 _ (ix2 p q) (ix2 (0 : Fin 1) q)
    (fun a => match a with
      | ⟨0, _⟩ => by show 0 = if (1 : Nat) = 1 then 0 else p.val; rw [if_pos rfl]
      | ⟨1, _⟩ => by show q.val = if (16 : Nat) = 1 then 0 else q.val; rw [if_neg (by decide)])).trans ?_
  exact broadcastInDim_apply _ Cert.ReferenceIdeal.Facts₀.bcast_S16_S1x16_1 b (ix2 (0 : Fin 1) q) (ix1 q)
    (fun a => match a with
      | ⟨0, _⟩ => by show q.val = if (16 : Nat) = 1 then 0 else q.val; rw [if_neg (by decide)])

/-- The splat of the zero word reads that word's value everywhere. -/
theorem zero128_apply (i : Cert.ReferenceIdeal.S50000x128.Idx) :
    broadcastInDim Cert.ReferenceIdeal.S50000x128 ![] Cert.ReferenceIdeal.Facts₀.bcast_S_S50000x128
        (constant (F := Ideal) Cert.ReferenceIdeal.S_ .f32 0x00000000#32) i
      = Ideal.ofBits .f32 0x00000000#32 :=
  broadcastInDim_apply _ Cert.ReferenceIdeal.Facts₀.bcast_S_S50000x128 _ i ix0 (fun a => a.elim0)

/-! ## The kernel side's one-row matrices read at an index -/

theorem row128_apply (b : FVec Ideal Cert.KernelIdeal.S128 .f32) (q : Fin 128) :
    Cert.KernelIdeal.Terms.row128 (F := Ideal) b (ix2 (0 : Fin 1) q) = b (ix1 q) :=
  shapeCast_a_1a_apply b Cert.KernelIdeal.Facts₀.shapeCasts_S128_S1x128 0 q

theorem row16_apply (b : FVec Ideal Cert.KernelIdeal.S16 .f32) (q : Fin 16) :
    Cert.KernelIdeal.Terms.row16 (F := Ideal) b (ix2 (0 : Fin 1) q) = b (ix1 q) :=
  shapeCast_a_1a_apply b Cert.KernelIdeal.Facts₀.shapeCasts_S16_S1x16 0 q

/-! ## The three statements -/

theorem agg_eq (h : FVec Ideal Cert.KernelIdeal.S50000x128 .f32) (e : IVec Cert.KernelIdeal.S2x800000 32) :
    Cert.KernelIdeal.Terms.agg (F := Ideal) h (Cert.KernelIdeal.Terms.src (F := Ideal) e) (Cert.KernelIdeal.Terms.dst (F := Ideal) e)
      = Cert.ReferenceIdeal.Terms.agg h e := rfl

/-- A combine stage over any mean: the kernel's pointwise form is the reference's host expression. -/
theorem comb_eq (m h : FVec Ideal Cert.KernelIdeal.S50000x128 .f32)
    (Wl : FVec Ideal Cert.KernelIdeal.S128x128 .f32) (b : FVec Ideal Cert.KernelIdeal.S128 .f32)
    (Wr : FVec Ideal Cert.KernelIdeal.S128x128 .f32) :
    Cert.KernelIdeal.Terms.comb m h Wl (Cert.KernelIdeal.Terms.row128 (F := Ideal) b) Wr
      = maximumf (F := Ideal)
          (addf (F := Ideal)
            (addf (F := Ideal)
              (Host.dotGeneral (F := Ideal) Cert.ReferenceIdeal.dot_S50000x128_S128x128_S50000x128_1_0_0_1_n_n none m Wl)
              (broadcastInDim Cert.ReferenceIdeal.S50000x128 ![0, 1] Cert.ReferenceIdeal.Facts₀.bcast_S1x128_S50000x128_0_1
                (broadcastInDim Cert.ReferenceIdeal.S1x128 ![1] Cert.ReferenceIdeal.Facts₀.bcast_S128_S1x128_1 b)))
            (Host.dotGeneral (F := Ideal) Cert.ReferenceIdeal.dot_S50000x128_S128x128_S50000x128_1_0_0_1_n_n none h Wr))
          (broadcastInDim Cert.ReferenceIdeal.S50000x128 ![] Cert.ReferenceIdeal.Facts₀.bcast_S_S50000x128
            (constant (F := Ideal) Cert.ReferenceIdeal.S_ .f32 0x00000000#32)) := by
  funext i
  obtain ⟨p, q, rfl⟩ : ∃ (p : Fin 50000) (q : Fin 128), i = ix2 p q := ⟨i 0, i 1, eq_ix2 i⟩
  rw [maximumf_apply, addf_apply, addf_apply, dot128_apply, dot128_apply, bias128_apply, zero128_apply]
  show max ((∑ k : Fin 128, m (ix2 p k) * Wl (ix2 k q) + ∑ k : Fin 128, h (ix2 p k) * Wr (ix2 k q))
      + Cert.KernelIdeal.Terms.row128 (F := Ideal) b (ix2 (0 : Fin 1) q)) (Ideal.ofBits .f32 0x00000000#32) = _
  rw [row128_apply, add_right_comm]

theorem layer_eq (h : FVec Ideal Cert.KernelIdeal.S50000x128 .f32) (e : IVec Cert.KernelIdeal.S2x800000 32)
    (Wl : FVec Ideal Cert.KernelIdeal.S128x128 .f32) (b : FVec Ideal Cert.KernelIdeal.S128 .f32)
    (Wr : FVec Ideal Cert.KernelIdeal.S128x128 .f32) :
    Cert.KernelIdeal.Terms.layer h e Wl b Wr = Cert.ReferenceIdeal.Terms.layer h e Wl b Wr :=
  comb_eq (Cert.ReferenceIdeal.Terms.agg h e) h Wl b Wr

/-- The linear stage over any input: the kernel's pointwise form is the reference's host expression. -/
theorem lin_eq (H : FVec Ideal Cert.KernelIdeal.S50000x128 .f32) (W : FVec Ideal Cert.KernelIdeal.S128x16 .f32)
    (b : FVec Ideal Cert.KernelIdeal.S16 .f32) :
    Cert.KernelIdeal.Terms.lin H W (Cert.KernelIdeal.Terms.row16 (F := Ideal) b)
      = addf (F := Ideal)
          (Host.dotGeneral (F := Ideal) Cert.ReferenceIdeal.dot_S50000x128_S128x16_S50000x16_1_0_0_1_n_n none H W)
          (broadcastInDim Cert.ReferenceIdeal.S50000x16 ![0, 1] Cert.ReferenceIdeal.Facts₀.bcast_S1x16_S50000x16_0_1
            (broadcastInDim Cert.ReferenceIdeal.S1x16 ![1] Cert.ReferenceIdeal.Facts₀.bcast_S16_S1x16_1 b)) := by
  funext i
  obtain ⟨p, q, rfl⟩ : ∃ (p : Fin 50000) (q : Fin 16), i = ix2 p q := ⟨i 0, i 1, eq_ix2 i⟩
  rw [addf_apply, dot16_apply, bias16_apply]
  show (∑ k : Fin 128, H (ix2 p k) * W (ix2 k q)) + Cert.KernelIdeal.Terms.row16 (F := Ideal) b (ix2 (0 : Fin 1) q) = _
  rw [row16_apply]

theorem total_eq (x0 : FVec Ideal Cert.KernelIdeal.S50000x128 .f32) (e : IVec Cert.KernelIdeal.S2x800000 32)
    (x2 : FVec Ideal Cert.KernelIdeal.S128x128 .f32) (x3 : FVec Ideal Cert.KernelIdeal.S128 .f32)
    (x4 : FVec Ideal Cert.KernelIdeal.S128x128 .f32) (x5 : FVec Ideal Cert.KernelIdeal.S128x128 .f32)
    (x6 : FVec Ideal Cert.KernelIdeal.S128 .f32) (x7 : FVec Ideal Cert.KernelIdeal.S128x128 .f32)
    (x8 : FVec Ideal Cert.KernelIdeal.S128x128 .f32) (x9 : FVec Ideal Cert.KernelIdeal.S128 .f32)
    (x10 : FVec Ideal Cert.KernelIdeal.S128x128 .f32) (x11 : FVec Ideal Cert.KernelIdeal.S128x16 .f32)
    (x12 : FVec Ideal Cert.KernelIdeal.S16 .f32) :
    Cert.KernelIdeal.Terms.total x0 e x2 x3 x4 x5 x6 x7 x8 x9 x10 x11 x12
      = Cert.ReferenceIdeal.Terms.total x0 e x2 x3 x4 x5 x6 x7 x8 x9 x10 x11 x12 := by
  unfold Cert.KernelIdeal.Terms.total Cert.ReferenceIdeal.Terms.total
  rw [layer_eq x0 e x2 x3 x4, layer_eq _ e x5 x6 x7, layer_eq _ e x8 x9 x10]
  exact lin_eq _ x11 x12

end Cert.Bridge

end
-- ==== Proof.lean ====
/-
  The certificate of the three-layer graph-convolution kernel against its jnp reference.

  Each layer replaces node features h by max(mean(h) · Wl + h · Wr + b, 0), where mean(h) averages, for every node,
  the features of the sources of its incoming edges (a node without incoming edges divides by one); a linear layer
  h · W + b follows. The kernel program computes mean(h) with host gather / scatter-add operations, the same ones the
  reference uses, and the affine part of every layer in a tiled matrix-unit region; the reference computes the affine
  part with host matrix products and adds the bias between the two products. On the extended reals the two orders of
  the three summands agree by commutativity and associativity of addition, the changes of float format on the way into
  the matrix unit are the identity, and a product into a zero accumulator is the plain sum, so no finiteness is used:
  the two programs' result arrays are one function of the arguments (Bridge.total_eq).

  The kernel program's run is the generated frame run with the result buffer named (KRun), its result read region by
  region (Blocks0 … Blocks3: a region's ten written blocks are the restrictions of one function of the arrays it finds
  and cover its output; Walk: what each region finds; Chain: the composition). The reference's run is the generated
  one, its result term regrouped layer by layer (RefSide). The idealization rewrote nothing, so `preserves` is trivial.
-/
import proofs.«131522_j34600256537257_1_alg».proof.Defs
import proofs.«131522_j34600256537257_1_alg».proof.Proof.Gen.Kernel
import proofs.«131522_j34600256537257_1_alg».proof.Proof.Gen.Kernel.Skeleton
import proofs.«131522_j34600256537257_1_alg».proof.Proof.Gen.Kernel.Launch
import proofs.«131522_j34600256537257_1_alg».proof.Proof.Gen.Kernel.Points
import proofs.«131522_j34600256537257_1_alg».proof.Proof.Gen.Kernel.Frame
import proofs.«131522_j34600256537257_1_alg».proof.Proof.Gen.KernelIdeal
import proofs.«131522_j34600256537257_1_alg».proof.Proof.Gen.KernelIdeal.Skeleton
import proofs.«131522_j34600256537257_1_alg».proof.Proof.Gen.KernelIdeal.Launch
import proofs.«131522_j34600256537257_1_alg».proof.Proof.Gen.KernelIdeal.Points
import proofs.«131522_j34600256537257_1_alg».proof.Proof.Gen.KernelIdeal.Frame
import proofs.«131522_j34600256537257_1_alg».proof.Proof.Gen.ReferenceIdeal
import proofs.«131522_j34600256537257_1_alg».proof.Proof.Gen.ReferenceIdeal.Run
import proofs.«131522_j34600256537257_1_alg».proof.Proof.Gen.Pre_finite_inputs
import proofs.«131522_j34600256537257_1_alg».proof.Proof.Terms
import proofs.«131522_j34600256537257_1_alg».proof.Proof.KRun
import proofs.«131522_j34600256537257_1_alg».proof.Proof.Chain
import proofs.«131522_j34600256537257_1_alg».proof.Proof.RefSide
import proofs.«131522_j34600256537257_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the three layers and the linear layer of the arguments. -/
theorem algebraic : Cert.algebraic_KernelIdeal_ReferenceIdeal := by
  intro m ρ m' ρ' _ hagree
  refine ⟨fun c => Cert.KernelIdeal.Terms.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result m ρ c), (h c).2⟩)
      (Cert.KernelIdeal.RunValue.run_named m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.RefValue.res_eq m' c, a0, a1, a2, a3, a4, a5, a6, a7, a8, a9, a10, a11, a12]
    exact (Cert.Bridge.total_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
